-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x3x8192 : Shape := ⟨3, ![4, 3, 8192]⟩
abbrev S4x8x1x128 : Shape := ⟨4, ![4, 8, 1, 128]⟩
abbrev S1x3x1024 : Shape := ⟨3, ![1, 3, 1024]⟩
abbrev S1x3x8192 : Shape := ⟨3, ![1, 3, 8192]⟩
abbrev S1x1x1x128 : Shape := ⟨4, ![1, 1, 1, 128]⟩
abbrev S3x1024 : Shape := ⟨2, ![3, 1024]⟩
abbrev S1024 : Shape := ⟨1, ![1024]⟩
abbrev S1x1024 : Shape := ⟨2, ![1, 1024]⟩
abbrev S1024x1 : Shape := ⟨2, ![1024, 1]⟩
abbrev S1x3x2048 : Shape := ⟨3, ![1, 3, 2048]⟩
abbrev S3x2048 : Shape := ⟨2, ![3, 2048]⟩
abbrev S2048 : Shape := ⟨1, ![2048]⟩
abbrev S1x2048 : Shape := ⟨2, ![1, 2048]⟩
abbrev S1024x2048 : Shape := ⟨2, ![1024, 2048]⟩
abbrev S1 : Shape := ⟨1, ![1]⟩
abbrev S1x1 : Shape := ⟨2, ![1, 1]⟩
abbrev S1x128 : Shape := ⟨2, ![1, 128]⟩
abbrev S4x8x1x1 : Shape := ⟨4, ![4, 8, 1, 1]⟩
abbrev S4x8 : Shape := ⟨2, ![4, 8]⟩
abbrev S_ : Shape := ⟨0, ![]⟩
abbrev S4 : Shape := ⟨1, ![4]⟩

abbrev nBuf : Space → Nat
  | .hbm => 12
  | .vmem => 6
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x3x8192, .f32⟩
  | .hbm, ⟨3, _⟩ => ⟨S4x3x8192, .f32⟩
  | .hbm, ⟨4, _⟩ => ⟨S4x8x1x128, .f32⟩
  | .hbm, ⟨5, _⟩ => ⟨S4x8x1x1, .f32⟩
  | .hbm, ⟨6, _⟩ => ⟨S4x8, .f32⟩
  | .hbm, ⟨7, _⟩ => ⟨S_, .f32⟩
  | .hbm, ⟨8, _⟩ => ⟨S4, .f32⟩
  | .hbm, ⟨9, _⟩ => ⟨S_, .f32⟩
  | .hbm, ⟨10, _⟩ => ⟨S4, .f32⟩
  | .hbm, ⟨11, _⟩ => ⟨S4, .f32⟩
  | .local _ .vmem, ⟨0, _⟩ => ⟨S1x3x1024, .f32⟩
  | .local _ .vmem, ⟨1, _⟩ => ⟨S1x3x1024, .f32⟩
  | .local _ .vmem, ⟨2, _⟩ => ⟨S1x3x8192, .f32⟩
  | .local _ .vmem, ⟨3, _⟩ => ⟨S1x3x8192, .f32⟩
  | .local _ .vmem, ⟨4, _⟩ => ⟨S1x1x1x128, .f32⟩
  | .local _ .vmem, ⟨5, _⟩ => ⟨S1x1x1x128, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x3x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S4x8192x3_S4x3x8192_0_2_1 : S4x8192x3.Transposes [0, 2, 1] S4x3x8192
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  reduces_S3x1024_S1024 : S3x1024.Reduces [0] S1024
  shapeCasts_S1024_S1x1024 : S1024.ShapeCasts S1x1024
  transposes_S1x1024_p1_0_S1024x1 : S1x1024.Transposes [1, 0] S1024x1
  bitsLt_bf16_f32 : FTy.bits .bf16 < FTy.bits .f32
  inb_S1x3x8192_S1x3x2048_0_0_0 : ∀ a, (![0, 0, 0] : Fin 3 → Nat) a + S1x3x2048.size a ≤ S1x3x8192.size a
  h_S1x3x2048 : 0 < S1x3x2048.numel
  shapeCasts_S1x3x2048_S3x2048 : S1x3x2048.ShapeCasts S3x2048
  reduces_S3x2048_S2048 : S3x2048.Reduces [0] S2048
  shapeCasts_S2048_S1x2048 : S2048.ShapeCasts S1x2048
  broadcasts_S1024x1_S1024x2048 : S1024x1.Broadcasts S1024x2048
  broadcasts_S1x2048_S1024x2048 : S1x2048.Broadcasts S1024x2048
  reduces_S1024x2048_S1024 : S1024x2048.Reduces [1] S1024
  shapeCasts_S1024_S1024x1 : S1024.ShapeCasts S1024x1
  inb_S1x3x8192_S1x3x2048_0_0_2048 : ∀ a, (![0, 0, 2048] : Fin 3 → Nat) a + S1x3x2048.size a ≤ S1x3x8192.size a
  inb_S1x3x8192_S1x3x2048_0_0_4096 : ∀ a, (![0, 0, 4096] : Fin 3 → Nat) a + S1x3x2048.size a ≤ S1x3x8192.size a
  inb_S1x3x8192_S1x3x2048_0_0_6144 : ∀ a, (![0, 0, 6144] : Fin 3 → Nat) a + S1x3x2048.size a ≤ S1x3x8192.size a
  reduces_S1024x1_S1 : S1024x1.Reduces [0] S1
  shapeCasts_S1_S1x1 : S1.ShapeCasts S1x1
  shapeCasts_S1x1_S1x1 : S1x1.ShapeCasts S1x1
  broadcasts_S1x1_S1x128 : S1x1.Broadcasts S1x128
  inb_S1x1x1x128_S1x1x1x128_0_0_0_0 : ∀ a, (![0, 0, 0, 0] : Fin 4 → Nat) a + S1x1x1x128.size a ≤ S1x1x1x128.size a
  h_S1x1x1x128 : 0 < S1x1x1x128.numel
  shapeCasts_S1x1x1x128_S1x128 : S1x1x1x128.ShapeCasts S1x128
  shapeCasts_S1x128_S1x1x1x128 : S1x128.ShapeCasts S1x1x1x128
  slices_S4x8x1x128_S4x8x1x1_0_0_0_0 : S4x8x1x128.Slices ![0, 0, 0, 0] S4x8x1x1
  shapeCasts_S4x8x1x1_S4x8 : S4x8x1x1.ShapeCasts S4x8
  reducesTo_S4x8_S4_d1 : S4x8.ReducesTo [1] S4
  h_S_ : 0 < S_.numel
  bcast_S_S4 : S_.BroadcastsInDim S4 (![] : Fin 0 → Fin S4.rank)
  dot_S3x1024_S3x2048_S1024x2048_0_0_1_1_n_n_wf : DotDims.WF S3x1024 S3x2048 S1024x2048 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x1024.size a ≤ S4x3x8192.size a
  hwx0_0 : ∀ i : grid0.Coords, EltTy.bits .f32 = 32 ∨ (Rect.block (s := S4x3x8192) S1x3x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x8192.size a ≤ S4x3x8192.size a
  hwx0_1 : ∀ i : grid0.Coords, EltTy.bits .f32 = 32 ∨ (Rect.block (s := S4x3x8192) S1x3x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1x128.size a ≤ S4x8x1x128.size a
  hwx0_2 : ∀ i : grid0.Coords, EltTy.bits .f32 = 32 ∨ (Rect.block (s := S4x8x1x128) S1x1x1x128.size (cc0_transform_2 i) (hinb0_2 i)).WholeWords (EltTy.packing .f32)

variable [Facts₀]

def dot_S3x1024_S3x2048_S1024x2048_0_0_1_1_n_n : DotDims S3x1024 S3x2048 S1024x2048 where
  lhsContracting := [0]
  rhsContracting := [0]
  lhsNonContracting := [1]
  rhsNonContracting := [1]
  lhsBatch := []
  rhsBatch := []
  wf := dot_S3x1024_S3x2048_S1024x2048_0_0_1_1_n_n_wf

abbrev win0_0 : Pipeline.Window sig grid0 :=
  Pipeline.Window.ofSpec (Memref.whole main_v0) S1x3x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S4 : Shape := ⟨1, ![4]⟩

abbrev nBuf : Space → Nat
  | .hbm => 27
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S4x8192x8192, .f32⟩
  | .hbm, ⟨22, _⟩ => ⟨S_, .f32⟩
  | .hbm, ⟨23, _⟩ => ⟨S4, .f32⟩
  | .hbm, ⟨24, _⟩ => ⟨S_, .f32⟩
  | .hbm, ⟨25, _⟩ => ⟨S4, .f32⟩
  | .hbm, ⟨26, _⟩ => ⟨S4, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4_d1_2 : S4x8192x8192.ReducesTo [1, 2] S4
  bcast_S_S4 : S_.BroadcastsInDim S4 (![] : Fin 0 → Fin S4.rank)
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Consts.lean ====
/-
  The float constants the two programs spell, as the extended reals their patterns denote: the kernel scales the
  target coordinates by `-2.0` before the matrix product, the reference multiplies the matrix product by `2.0`
  and subtracts. Both are exact powers of two.
-/
import Idealize.ShloMosaic.PureOps.Ideal
import Idealize.ShloMosaic.PureOps.Ideal.Laws

noncomputable section

namespace Cert.PointDist

open Idealize.ShloMosaic

/-- The pattern of `-2.0` denotes the real `-2`. -/
theorem ofBits_neg_two : Ideal.ofBits .f32 0xC0000000#32 = ((-2 : ℝ) : EReal) := by
  simp [Ideal.ofBits, Ideal.ieee, -EReal.coe_mul]; norm_num

/-- The pattern of `2.0` denotes the real `2`. -/
theorem ofBits_two : Ideal.ofBits .f32 0x40000000#32 = ((2 : ℝ) : EReal) := by
  simp [Ideal.ofBits, Ideal.ieee, -EReal.coe_mul]; norm_num

end Cert.PointDist

end
-- ==== Proof.PairDist.lean ====
/-
  The distance between two points of ℝ³, as each program computes it from the coordinates.

  Both programs use ‖p − t‖² = ‖p‖² + ‖t‖² − 2 p·t, clamp at zero and take the square root. They differ in where the
  factor 2 sits: the kernel scales every coordinate of `t` by `-2` BEFORE the inner product and ADDS,
  (‖p‖² + ‖t‖²) + Σ_d p_d · (t_d · (−2)); the reference takes the inner product, multiplies it by `2` and SUBTRACTS,
  (‖p‖² + ‖t‖²) − 2 · Σ_d p_d · t_d. On the extended reals moving a factor across a sum is not a law (it fails at
  infinite coordinates), so the two agree exactly where the coordinates are real numbers: there both are the same
  polynomial in the six coordinates.
-/
import proofs.«113930_j45844480917997_2_alg».proof.Proof.Consts

noncomputable section

namespace Cert.PointDist

open Idealize.ShloMosaic

/-- The kernel's distance of `p` and `t`: the squared norms summed, plus the inner product of `p` with `-2 · t`,
    clamped at zero, square-rooted. -/
def kdist (p t : Fin 3 → EReal) : EReal :=
  Ideal.sqrt (max (((∑ d, p d * p d) + (∑ d, t d * t d)) + ∑ d, p d * (t d * Ideal.ofBits .f32 0xC0000000#32))
    (Ideal.ofBits .f32 0x00000000#32))

/-- The reference's distance of `p` and `t`: each squared norm a sum from zero, minus twice the inner product,
    clamped at zero, square-rooted. -/
def rdist (p t : Fin 3 → EReal) : EReal :=
  Ideal.sqrt (max (((Ideal.ofBits .f32 0x00000000#32 + ∑ d, p d * p d) + (Ideal.ofBits .f32 0x00000000#32 + ∑ d, t d * t d))
      - Ideal.ofBits .f32 0x40000000#32 * ∑ d, p d * t d)
    (Ideal.ofBits .f32 0x00000000#32))

/-- At real coordinates the two are the same number: the arguments of the clamp are one polynomial. -/
theorem rdist_eq_kdist (p t : Fin 3 → ℝ) :
    rdist (fun d => (p d : EReal)) (fun d => (t d : EReal)) = kdist (fun d => (p d : EReal)) (fun d => (t d : EReal)) := by
  unfold rdist kdist
  rw [ofBits_neg_two, ofBits_two, Ideal.ofBits_zero_f32]
  simp only [Fin.sum_univ_three, zero_add]
  refine congrArg (fun x => Ideal.sqrt (max x 0)) ?_
  simp only [← EReal.coe_mul, ← EReal.coe_add, ← EReal.coe_sub]
  refine congrArg (fun x : ℝ => (x : EReal)) ?_
  ring

end Cert.PointDist

end
-- ==== Proof.LibColumns.lean ====
/-
  Columns and rows of a rank-2 array, read at an index given by coordinates.

  A row-wise computation on an `[a, b]` array keeps one value per row in a COLUMN, an array of shape `[a, 1]`:
  it cuts single columns out of the array, casts a vector of `a` row results to a column, and broadcasts a column
  back along the second axis. Each of these reads, at `(r, ·)`, one entry of its operand in row `r`:
  • column `o` cut out of `[a, b]` reads the array at `(r, o)` (`slice_col_apply`);
  • a vector `[a]` cast to a column `[a, 1]` reads entry `r` (`shapeCast_a_a1_apply`);
  • a column `[a, 1]` broadcast to `[a, b]` reads, at `(r, j)`, the column's entry `r` for every `j`
    (`broadcastTo_a1_ab_apply`).
  A reduction of `[a, b]` along its second axis reads, at row `r`, a fold over the row's `b` entries. Over the
  extended reals `min` and `max` commute and associate, so the order of the fold does not matter and a kernel's
  vector reduction and a host reduce of the same row are the same fold over `Fin b`, started from the
  accumulator's (the initial value's) extended real (`multiReduction_minimumf_row`, `multiReduction_maximumf_row`,
  `hostReduce_minimumf_row`, `hostReduce_maximumf_row`). The index that a row's result `r` and a coordinate `k`
  on the reduced axis name together is `(r, k)` (`lift_row`).
-/
import Idealize.ShloMosaic.Lib.ValueLayout
import Idealize.ShloMosaic.Lib.ValueIdx
import Idealize.ShloMosaic.Lib.Pipeline.Value
import Idealize.ShloMosaic.PureOps.Ideal.Laws
import Idealize.ShloMosaic.PureOps.Reduce

noncomputable section

namespace Cert.Columns

open Idealize.ShloMosaic Idealize.ShloMosaic.ValueIdx

variable {α : Type}

/-! ## Layout operations on columns -/

/-- Column `o` of an `[a, b]` array, cut out as a column `[a, 1]`, reads at `(r, u)` the array at `(r, o)`. -/
theorem slice_col_apply {a b : ℕ} (o : ℕ) (ho : o < b) (X : (⟨2, ![a, b]⟩ : Shape).Idx → α)
    (h : (⟨2, ![a, b]⟩ : Shape).Slices ![0, o] ⟨2, ![a, 1]⟩) (r : Fin a) (u : Fin 1) :
    extractStridedSlice ⟨2, ![a, 1]⟩ ![0, o] X h (ix2 r u) = X (ix2 r (⟨o, ho⟩ : Fin b)) :=
  slice2_axis1_apply o X h r u ⟨o, ho⟩ (by have := u.isLt; show o = o + u.val; omega)

/-- A vector of `a` entries cast to a column `[a, 1]` reads, at `(r, u)`, entry `r`: the two indices have the same
    row-major position `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast along the second axis to `[a, b]` reads, at `(r, j)`, the column's entry `r`. -/
theorem broadcastTo_a1_ab_apply {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-! ## A row's reduction along the second axis -/

/-- Row `r` of the reduced array with coordinate `k` put back on the reduced (second) axis is the index `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A kernel's minimum reduction of an `[a, b]` array along its second axis, at the extended reals, read at row `r`:
    the fold of `min` from the accumulator's value over the row's `b` entries. -/
theorem multiReduction_minimumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- The same for a maximum reduction: the fold of `max` over the row. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [multiReduction_maximumf_eq_fold]
  refine (h.fold_filter_drop_single _ _ src (ix1 r)).trans ?_
  exact congrArg (fun f => Finset.fold max (Ideal.ofBits φ acc) f (Finset.univ : Finset (Fin b)))
    (funext fun k => congrArg src (lift_row h r k))

/-- A host reduce with a minimum body of an `[a, b]` array along its second axis, from the scalar constant `w`, read
    at row `r`: the same fold of `min` over the row, from the extended real `w` denotes. -/
theorem hostReduce_minimumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.minimumf x (constant (F := Ideal) (⟨0, ![]⟩ : Shape) .f32 w) h' hu (ix1 r)
      = (Finset.univ : Finset (Fin b)).fold min (Ideal.ofBits .f32 w) (fun k => x (ix2 r k)) := by
  rw [Host.reduce_eq_fold_single FloatOps.minimumf x _ h' h hu]
  exact congrArg (fun f => Finset.fold min (Ideal.ofBits .f32 w) f (Finset.univ : Finset (Fin b)))
    (funext fun k => congrArg x (lift_row h r k))

/-- The same for a maximum body: the fold of `max` over the row. -/
theorem hostReduce_maximumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.maximumf x (constant (F := Ideal) (⟨0, ![]⟩ : Shape) .f32 w) h' hu (ix1 r)
      = (Finset.univ : Finset (Fin b)).fold max (Ideal.ofBits .f32 w) (fun k => x (ix2 r k)) := by
  rw [Host.reduce_eq_fold_single FloatOps.maximumf x _ h' h hu]
  exact congrArg (fun f => Finset.fold max (Ideal.ofBits .f32 w) f (Finset.univ : Finset (Fin b)))
    (funext fun k => congrArg x (lift_row h r k))

end Cert.Columns

end
-- ==== Proof.TileSum.lean ====
/-
  What one grid point of the kernel computes: the sum of the distances between the 1024 points of its p-tile and all
  8192 target points of its batch, the targets taken in four chunks of 2048.

  For a p-tile `X0` (coordinates × points, [1, 3, 1024]) and a target chunk `X` ([1, 3, 2048]) the body forms the
  1024 × 2048 matrix whose entry (r, q) is the kernel's distance (`kdist`, PairDist.lean) between point `r` of the tile
  and point `q` of the chunk: the column of squared norms of the tile broadcast along the rows, the row of squared norms
  of the chunk broadcast along the columns, and the K = 3 matrix product of the tile with the chunk scaled by −2 —
  a format change to bf16 on both factors, which is the identity on the extended reals. It sums each row of that
  matrix, adds the four chunks' row sums to a zero column, sums the column, and stores the total in all 128 lanes.
-/
import proofs.«113930_j45844480917997_2_alg».proof.Proof.Gen.KernelIdeal.Skeleton
import proofs.«113930_j45844480917997_2_alg».proof.Proof.PairDist
import proofs.«113930_j45844480917997_2_alg».proof.Proof.LibColumns
import Idealize.ShloMosaic.Lib.ValueLayout
import Idealize.ShloMosaic.Lib.ValueIdx
import Idealize.ShloMosaic.Lib.Pipeline.Value
import Idealize.ShloMosaic.PureOps.Ideal.Laws

noncomputable section

namespace Cert.PointDist

open Idealize.ShloMosaic Idealize.ShloMosaic.ValueIdx Cert.Columns
open Cert.KernelIdeal Cert.KernelIdeal.Facts₀

variable {α : Type}

/-! ## Reductions of a matrix along one axis, as sums over that axis -/

/-- Column `q` of the reduced array with coordinate `k` put back on the reduced (first) axis is the index `(k, q)`. -/
theorem lift_col {a b : ℕ} (h : (⟨2, ![a, b]⟩ : Shape).Reduces [0] (⟨1, ![b]⟩ : Shape)) (q : Fin b)
    (k : Fin ((⟨2, ![a, b]⟩ : Shape).size 0)) : h.lift (ix1 q) k = ix2 (⟨k.val, k.isLt⟩ : Fin a) q := by
  funext c; apply Fin.ext
  fin_cases c <;> rfl

/-- A sum reduction of an `[a, b]` array along its FIRST axis, read at column `q`: the sum of the column's entries. -/
theorem multiReduction_add_col {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (q : Fin b) :
    multiReduction .add [0] ⟨1, ![b]⟩ src acc h hφ hacc (ix1 q) = ∑ k : Fin a, src (ix2 k q) := by
  refine (Ideal.multiReduction_add_single src acc h hφ hacc (ix1 q)).trans ?_
  exact Finset.sum_congr rfl fun k _ => congrArg src (lift_col h q k)

/-- A sum reduction of an `[a, b]` array along its SECOND axis, read at row `r`: the sum of the row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

/-- A `[1, 128]` row cast to `[1, 1, 1, 128]` reads, at any index, the row at the index's lane. -/
theorem shapeCast_lanes_apply (x : (⟨2, ![1, 128]⟩ : Shape).Idx → α)
    (h : (⟨2, ![1, 128]⟩ : Shape).ShapeCasts ⟨4, ![1, 1, 1, 128]⟩) (y : (⟨4, ![1, 1, 1, 128]⟩ : Shape).Idx) :
    shapeCast ⟨4, ![1, 1, 1, 128]⟩ x h y = x (ix2 (0 : Fin 1) (y 3)) :=
  shapeCast_apply x h _ _ (by
    have h0 : (y 0).val = 0 := by have h : (y 0).val < 1 := (y 0).isLt; omega
    have h1 : (y 1).val = 0 := by have h : (y 1).val < 1 := (y 1).isLt; omega
    have h2 : (y 2).val = 0 := by have h : (y 2).val < 1 := (y 2).isLt; omega
    rw [Shape.rowMajor_val_four, Shape.rowMajor_val_two]
    show 0 * 128 + (y 3).val = (((y 0).val * 1 + (y 1).val) * 1 + (y 2).val) * 128 + (y 3).val
    rw [h0, h1, h2])

/-! ## The K = 3 matrix product of a tile with a chunk -/

/-- The product's dimension numbers: both operands contract their coordinate axis. -/
abbrev dotD := dot_S3x1024_S3x2048_S1024x2048_0_0_1_1_n_n

theorem dotD_lhs_1 (i : S1024x2048.Idx) (k : dotD.contr.Idx) : (dotD.lhsIdx i k 1).val = (i 0).val := by
  unfold DotDims.lhsIdx
  rw [dif_neg (show ¬(1 : Fin S3x1024.rank) ∈ dotD.lhsBatch by decide),
    dif_pos (show (1 : Fin S3x1024.rank) ∈ dotD.lhsNonContracting by decide)]
  rfl

theorem dotD_rhs_1 (i : S1024x2048.Idx) (k : dotD.contr.Idx) : (dotD.rhsIdx i k 1).val = (i 1).val := by
  unfold DotDims.rhsIdx
  rw [dif_neg (show ¬(1 : Fin S3x2048.rank) ∈ dotD.rhsBatch by decide),
    dif_pos (show (1 : Fin S3x2048.rank) ∈ dotD.rhsNonContracting by decide)]
  rfl

/-- Into a zero accumulator the product at (r, q) is the inner product of column `r` of the left factor with column
    `q` of the right factor, over the three coordinates. -/
theorem cross_apply {φ₁ φ₂ : FTy} (A : FVec Ideal S3x1024 φ₁) (B : FVec Ideal S3x2048 φ₂) (r : Fin 1024) (q : Fin 2048) :
    matmul dotD none A B (constant S1024x2048 .f32 0x00000000#32) (ix2 r q) = ∑ d : Fin 3, A (ix2 d r) * B (ix2 d q) := by
  simp only [matmul]
  rw [Ideal.matmul_constant_zero_apply, ← Equiv.sum_comp (contrEquiv1 dotD 3 rfl rfl).symm]
  refine Finset.sum_congr rfl fun k _ => ?_
  have hk := contrEquiv1_symm_val dotD 3 rfl rfl k
  have el : dotD.lhsIdx (ix2 r q) ((contrEquiv1 dotD 3 rfl rfl).symm k) = ix2 k r := funext fun a => Fin.ext (by
    match a with
    | ⟨0, _⟩ => exact (dotD.lhsIdx_val_of_single rfl _ _).trans hk
    | ⟨1, _⟩ => exact dotD_lhs_1 _ _)
  have er : dotD.rhsIdx (ix2 r q) ((contrEquiv1 dotD 3 rfl rfl).symm k) = ix2 k q := funext fun a => Fin.ext (by
    match a with
    | ⟨0, _⟩ => exact (dotD.rhsIdx_val_of_single rfl _ _).trans hk
    | ⟨1, _⟩ => exact dotD_rhs_1 _ _)
  rw [el, er]

/-! ## One chunk's distance matrix and its row sums -/

/-- The distance matrix of a tile against a chunk, from the tile's column of squared norms `P2`, the tile in bf16
    `Pb` and the chunk `Tc`. -/
def chunkDist (P2 : FVec Ideal S1024x1 .f32) (Pb : FVec Ideal S3x1024 .bf16) (Tc : FVec Ideal S3x2048 .f32) :
    FVec Ideal S1024x2048 .f32 :=
  sqrt (maximumf
    (addf
      (addf (broadcastTo S1024x2048 P2 broadcasts_S1024x1_S1024x2048)
        (broadcastTo S1024x2048
          (shapeCast S1x2048 (multiReduction .add [0] S2048 (mulf Tc Tc) 0x00000000#32 reduces_S3x2048_S2048 (.inl rfl) rfl)
            shapeCasts_S2048_S1x2048)
          broadcasts_S1x2048_S1024x2048))
      (matmul dotD none Pb
        (truncf .bf16 (mulf Tc (broadcast S3x2048 (Scalar.ofBits .f32 0xC0000000#32))) bitsLt_bf16_f32)
        (constant S1024x2048 .f32 0x00000000#32)))
    (broadcast S1024x2048 (Scalar.ofBits .f32 0x00000000#32)))

/-- Entry (r, q) of the matrix, from entry `r` of the column of squared norms and columns `r`, `q` of the factors. -/
theorem chunkDist_apply (P2 : FVec Ideal S1024x1 .f32) (Pb : FVec Ideal S3x1024 .bf16) (Tc : FVec Ideal S3x2048 .f32)
    (r : Fin 1024) (q : Fin 2048) :
    chunkDist P2 Pb Tc (ix2 r q)
      = Ideal.sqrt (max ((P2 (ix2 r (0 : Fin 1)) + ∑ d : Fin 3, Tc (ix2 d q) * Tc (ix2 d q))
          + ∑ d : Fin 3, Pb (ix2 d r) * (Tc (ix2 d q) * Ideal.ofBits .f32 0xC0000000#32))
        (Ideal.ofBits .f32 0x00000000#32)) := by
  show Ideal.sqrt (max ((broadcastTo S1024x2048 P2 broadcasts_S1024x1_S1024x2048 (ix2 r q)
        + broadcastTo S1024x2048 (shapeCast S1x2048 (multiReduction .add [0] S2048 (mulf Tc Tc) 0x00000000#32 reduces_S3x2048_S2048 (.inl rfl) rfl)
            shapeCasts_S2048_S1x2048) broadcasts_S1x2048_S1024x2048 (ix2 r q))
      + matmul dotD none Pb (truncf .bf16 (mulf Tc (broadcast S3x2048 (Scalar.ofBits .f32 0xC0000000#32))) bitsLt_bf16_f32)
          (constant S1024x2048 .f32 0x00000000#32) (ix2 r q))
    (Ideal.ofBits .f32 0x00000000#32)) = _
  refine congrArg (fun x => Ideal.sqrt (max x (Ideal.ofBits .f32 0x00000000#32))) ?_
  refine congrArg₂ (· + ·) (congrArg₂ (· + ·) ?_ ?_) ?_
  · exact broadcastTo_a1_ab_apply P2 _ r q
  · refine (broadcastTo_1b_ab_apply _ _ r q).trans ?_
    refine (shapeCast_a_1a_apply _ _ (0 : Fin 1) q).trans ?_
    exact multiReduction_add_col (mulf Tc Tc) _ _ _ _ q
  · refine (cross_apply Pb _ r q).trans ?_
    rfl

/-- The row sums of a 1024 × 2048 matrix, as a column. -/
def rowSums (M : FVec Ideal S1024x2048 .f32) : FVec Ideal S1024x1 .f32 :=
  shapeCast S1024x1 (multiReduction .add [1] S1024 M 0x00000000#32 reduces_S1024x2048_S1024 (.inl rfl) rfl) shapeCasts_S1024_S1024x1

theorem rowSums_apply (M : FVec Ideal S1024x2048 .f32) (r : Fin 1024) (u : Fin 1) :
    rowSums M (ix2 r u) = ∑ q : Fin 2048, M (ix2 r q) := by
  unfold rowSums
  exact (shapeCast_a_a1_apply _ _ r u).trans (multiReduction_add_row M _ _ _ _ r)

/-- A loaded chunk `[1, 3, 2048]` as a matrix `[3, 2048]`. -/
def chunkOf (X : Vec Ideal S1x3x2048 .f32) : FVec Ideal S3x2048 .f32 := shapeCast S3x2048 X shapeCasts_S1x3x2048_S3x2048

theorem chunkOf_apply (X : Vec Ideal S1x3x2048 .f32) (d : Fin 3) (q : Fin 2048) : chunkOf X (ix2 d q) = X (ix3 (0 : Fin 1) d q) :=
  shapeCast_1ab_ab_apply X _ d q

/-- The tile's column of squared norms at row `r`: the sum of the squares of point `r`'s three coordinates. -/
theorem sqnorm_col_apply (X0 : Vec Ideal S1x3x1024 .f32) (r : Fin 1024) (u : Fin 1) :
    Gen.k0_pay3 (F := Ideal) X0 (ix2 r u) = ∑ d : Fin 3, X0 (ix3 (0 : Fin 1) d r) * X0 (ix3 (0 : Fin 1) d r) := by
  unfold Gen.k0_pay3 Gen.k0_pay2
  refine (transpose_ix2_apply _ _ r u).trans ?_
  refine (shapeCast_a_1a_apply _ _ u r).trans ?_
  refine (multiReduction_add_col _ _ reduces_S3x1024_S1024 _ _ r).trans ?_
  refine Finset.sum_congr rfl fun d _ => ?_
  show shapeCast S3x1024 X0 shapeCasts_S1x3x1024_S3x1024 (ix2 d r) * shapeCast S3x1024 X0 shapeCasts_S1x3x1024_S3x1024 (ix2 d r) = _
  rw [shapeCast_1ab_ab_apply]

/-- The tile in bf16 at (d, r) is coordinate `d` of point `r`: the format change is the identity. -/
theorem tile_bf16_apply (X0 : Vec Ideal S1x3x1024 .f32) (d : Fin 3) (r : Fin 1024) :
    Gen.k0_pay4 (F := Ideal) X0 (ix2 d r) = X0 (ix3 (0 : Fin 1) d r) := by
  unfold Gen.k0_pay4 Gen.k0_pay2
  exact shapeCast_1ab_ab_apply X0 _ d r

/-- Entry (r, q) of a tile's distance matrix against a loaded chunk is the kernel's distance of the two points. -/
theorem tile_chunk_apply (X0 : Vec Ideal S1x3x1024 .f32) (X : Vec Ideal S1x3x2048 .f32) (r : Fin 1024) (q : Fin 2048) :
    chunkDist (Gen.k0_pay3 X0) (Gen.k0_pay4 X0) (chunkOf X) (ix2 r q)
      = kdist (fun d => X0 (ix3 (0 : Fin 1) d r)) (fun d => X (ix3 (0 : Fin 1) d q)) := by
  rw [chunkDist_apply, sqnorm_col_apply]
  simp only [chunkOf_apply, tile_bf16_apply]
  rfl

/-! ## The stored block -/

/-- A column of 1024 totalled and spread over the 128 lanes of the output block. -/
def lanes (v : FVec Ideal S1024x1 .f32) : FVec Ideal S1x1x1x128 .f32 :=
  shapeCast S1x1x1x128
    (broadcastTo S1x128
      (shapeCast S1x1 (shapeCast S1x1 (multiReduction .add [0] S1 v 0x00000000#32 reduces_S1024x1_S1 (.inl rfl) rfl) shapeCasts_S1_S1x1)
        shapeCasts_S1x1_S1x1)
      broadcasts_S1x1_S1x128)
    shapeCasts_S1x128_S1x1x1x128

theorem lanes_apply (v : FVec Ideal S1024x1 .f32) (y : S1x1x1x128.Idx) : lanes v y = ∑ r : Fin 1024, v (ix2 r (0 : Fin 1)) := by
  unfold lanes
  refine (shapeCast_lanes_apply _ _ y).trans ?_
  refine (broadcastTo_a1_ab_apply _ _ (0 : Fin 1) (y 3)).trans ?_
  rw [shapeCast_self]
  refine (shapeCast_a_1a_apply _ _ (0 : Fin 1) (0 : Fin 1)).trans ?_
  exact multiReduction_add_col v _ _ _ _ (0 : Fin 1)

/-- The body's stored value is the four chunks' row sums added, one after the other, to a zero column, then totalled. -/
theorem stored_eq (X0 : Vec Ideal S1x3x1024 .f32) (Xa Xb Xc Xd : Vec Ideal S1x3x2048 .f32) :
    Gen.k0_pay1 (F := Ideal) (Gen.k0_pay9 (Gen.k0_pay3 X0) (Gen.k0_pay4 X0) (Gen.k0_pay5 X0 Xa) (Gen.k0_pay7 X0 Xb) (Gen.k0_pay8 X0 Xb) Xc)
        (Gen.k0_pay10 (Gen.k0_pay3 X0) (Gen.k0_pay4 X0) Xd)
      = lanes (addf (addf (addf (addf (broadcast S1024x1 (Scalar.ofBits .f32 0x00000000#32))
            (rowSums (chunkDist (Gen.k0_pay3 X0) (Gen.k0_pay4 X0) (chunkOf Xa))))
          (rowSums (chunkDist (Gen.k0_pay3 X0) (Gen.k0_pay4 X0) (chunkOf Xb))))
          (rowSums (chunkDist (Gen.k0_pay3 X0) (Gen.k0_pay4 X0) (chunkOf Xc))))
          (rowSums (chunkDist (Gen.k0_pay3 X0) (Gen.k0_pay4 X0) (chunkOf Xd)))) := rfl

/-- The stored value at any lane: the sum over the tile's points of the four chunk sums of distances, added in order
    to the zero the column starts from. -/
theorem stored_apply (X0 : Vec Ideal S1x3x1024 .f32) (Xa Xb Xc Xd : Vec Ideal S1x3x2048 .f32) (y : S1x1x1x128.Idx) :
    Gen.k0_pay1 (F := Ideal) (Gen.k0_pay9 (Gen.k0_pay3 X0) (Gen.k0_pay4 X0) (Gen.k0_pay5 X0 Xa) (Gen.k0_pay7 X0 Xb) (Gen.k0_pay8 X0 Xb) Xc)
        (Gen.k0_pay10 (Gen.k0_pay3 X0) (Gen.k0_pay4 X0) Xd) y
      = ∑ r : Fin 1024,
          ((((Ideal.ofBits .f32 0x00000000#32
            + ∑ q : Fin 2048, kdist (fun d => X0 (ix3 (0 : Fin 1) d r)) (fun d => Xa (ix3 (0 : Fin 1) d q)))
            + ∑ q : Fin 2048, kdist (fun d => X0 (ix3 (0 : Fin 1) d r)) (fun d => Xb (ix3 (0 : Fin 1) d q)))
            + ∑ q : Fin 2048, kdist (fun d => X0 (ix3 (0 : Fin 1) d r)) (fun d => Xc (ix3 (0 : Fin 1) d q)))
            + ∑ q : Fin 2048, kdist (fun d => X0 (ix3 (0 : Fin 1) d r)) (fun d => Xd (ix3 (0 : Fin 1) d q))) := by
  rw [stored_eq, lanes_apply]
  refine Finset.sum_congr rfl fun r _ => ?_
  show (((Ideal.ofBits .f32 0x00000000#32 + rowSums _ (ix2 r 0)) + rowSums _ (ix2 r 0)) + rowSums _ (ix2 r 0)) + rowSums _ (ix2 r 0) = _
  simp only [rowSums_apply, tile_chunk_apply]

end Cert.PointDist

end
-- ==== Proof.LibSumSplit.lean ====
/-
  Sums regrouped by tiles, and a host sum over the last two axes.

  • An index below N = a · b is i · b + r for exactly one tile `i < a` and entry `r < b` (`tileIdx`), so in a
    commutative monoid a sum over `Fin N` is the sum over the tiles of the sums within each tile (`sum_tiles`): what
    joins a whole-axis sum with the same sum taken block by block.
  • A host sum of an `[a, n, m]` array of extended reals over its last two axes, read at batch `j`, is the initial
    value plus the double sum over the two reduced coordinates (`hostReduceAdd_last_two`): the indices that reduce to
    `j` are exactly the `(j, k, l)`.
-/
import Idealize.ShloMosaic.Lib.ValueIdx
import Idealize.ShloMosaic.PureOps.Ideal.Laws
import Idealize.ShloMosaic.PureOps.Reduce

noncomputable section

namespace Cert.PointDist

open Idealize.ShloMosaic Idealize.ShloMosaic.ValueIdx

/-- Entry `r` of tile `i`, of `a` tiles of `b` entries, as an index below `N = a · b`. -/
def tileIdx {a b N : ℕ} (h : a * b = N) (i : Fin a) (r : Fin b) : Fin N :=
  ⟨i.val * b + r.val, by
    have hi := i.isLt; have hr := r.isLt
    calc i.val * b + r.val < i.val * b + b := Nat.add_lt_add_left hr _
      _ = (i.val + 1) * b := (Nat.succ_mul _ _).symm
      _ ≤ a * b := Nat.mul_le_mul_right _ hi
      _ = N := h⟩

theorem tileIdx_val {a b N : ℕ} (h : a * b = N) (i : Fin a) (r : Fin b) : (tileIdx h i r).val = i.val * b + r.val := rfl

/-- A sum over `N = a · b` entries is the sum over the tiles of the sums within each tile. -/
theorem sum_tiles {M : Type*} [AddCommMonoid M] {a b N : ℕ} (h : a * b = N) (f : Fin N → M) :
    ∑ n, f n = ∑ i : Fin a, ∑ r : Fin b, f (tileIdx h i r) := by
  subst h
  rw [← finProdFinEquiv.sum_comp, Fintype.sum_prod_type]
  refine Finset.sum_congr rfl fun i _ => Finset.sum_congr rfl fun r _ => congrArg f (Fin.ext ?_)
  show r.val + b * i.val = i.val * b + r.val
  rw [Nat.mul_comm, Nat.add_comm]

/-- The host's sum of an `[a, n, m]` array over its last two axes, at batch `j`: the initial value plus the double
    sum over the two reduced coordinates. The indices that drop to `j` are exactly the `(j, n, m)`. -/
theorem hostReduceAdd_last_two {a n m : ℕ} (h : (⟨3, ![a, n, m]⟩ : Shape).ReducesTo [1, 2] (⟨1, ![a]⟩ : Shape))
    (x : (⟨3, ![a, n, m]⟩ : Shape).Idx → EReal) (init : EReal) (j : Fin a) :
    Ideal.hostReduceAdd h x init (ix1 j) = init + ∑ k : Fin n, ∑ l : Fin m, x (ix3 j k l) := by
  unfold Ideal.hostReduceAdd
  refine congrArg (init + ·) ?_
  rw [← Fintype.sum_prod_type']
  -- the one kept axis is the batch axis
  have hdrop : ∀ i : (⟨3, ![a, n, m]⟩ : Shape).Idx, ((h.drop i) 0).val = (i 0).val := fun i => rfl
  have hleft : ∀ i ∈ Finset.univ.filter (fun i => h.drop i = ix1 j), ix3 j (i 1) (i 2) = i := by
    intro i hi
    have hj := (Finset.mem_filter.1 hi).2
    have h0 : (i 0).val = j.val := by
      have := congrArg (fun y : (⟨1, ![a]⟩ : Shape).Idx => (y 0).val) hj
      exact (hdrop i).symm.trans this
    funext c; apply Fin.ext
    match c with
    | ⟨0, _⟩ => exact h0.symm
    | ⟨1, _⟩ => rfl
    | ⟨2, _⟩ => rfl
  refine Finset.sum_nbij' (fun i => (i 1, i 2)) (fun p => ix3 j p.1 p.2) ?_ ?_ ?_ ?_ ?_
  · intro i _; exact Finset.mem_univ _
  · intro p _
    refine Finset.mem_filter.2 ⟨Finset.mem_univ _, ?_⟩
    funext b; apply Fin.ext
    match b with
    | ⟨0, _⟩ => exact hdrop _
  · intro i hi; exact hleft i hi
  · intro p _; rfl
  · intro i hi; exact congrArg x (hleft i hi).symm

end Cert.PointDist

end
-- ==== Proof.Spec.lean ====
/-
  The specification both programs meet, and the per-tile partial sums the kernel leaves on the way.

  For a batch `b` of two clouds of 8192 points the result is the mean distance over all 8192² pairs: the sum from
  zero of the distances, divided by 2²⁶. The kernel gets there through 8 partial sums per batch, one per tile of 1024
  first points (`tileTotal`): within a tile, each point's distances to the 8192 second points are summed in four
  chunks of 2048, added one after the other to zero, and the 1024 row totals are summed. Adding the 8 partial sums is
  the sum over all pairs, because addition of extended reals is commutative and associative and every pair (n, m)
  is (tile i, row r) × (chunk j, column q) for exactly one (i, r, j, q).
-/
import proofs.«113930_j45844480917997_2_alg».proof.Proof.PairDist
import proofs.«113930_j45844480917997_2_alg».proof.Proof.LibSumSplit

noncomputable section

namespace Cert.PointDist

open Idealize.ShloMosaic Idealize.ShloMosaic.ValueIdx

/-- A cloud: 4 batches of 8192 points of 3 coordinates. -/
abbrev Cloud := (⟨3, ![4, 8192, 3]⟩ : Shape).Idx → EReal

/-- Point `n` of batch `b` of a cloud, as its three coordinates. -/
def pt (x : Cloud) (b : Fin 4) (n : Fin 8192) : Fin 3 → EReal := fun d => x (ix3 b n d)

/-- THE SPECIFICATION: for each batch, the sum from zero over all pairs of points of the kernel's distance, divided by
    the float 2²⁶. -/
def meanDist (x0 x1 : Cloud) : (⟨1, ![4]⟩ : Shape).Idx → EReal := fun i =>
  Ideal.div (Ideal.ofBits .f32 0x00000000#32 + ∑ n : Fin 8192, ∑ m : Fin 8192, kdist (pt x0 (i 0) n) (pt x1 (i 0) m))
    (Ideal.ofBits .f32 0x4C800000#32)

/-- 8 tiles of 1024 first points. -/
theorem tiles8 : 8 * 1024 = 8192 := rfl
/-- 4 chunks of 2048 second points. -/
theorem chunks4 : 4 * 2048 = 8192 := rfl

/-- The partial sum of tile `i` of batch `b`: over the tile's 1024 points, the four chunk sums of distances added in
    order to zero. -/
def tileTotal (x0 x1 : Cloud) (b : Fin 4) (i : Fin 8) : EReal :=
  ∑ r : Fin 1024,
    ((((Ideal.ofBits .f32 0x00000000#32
      + ∑ q : Fin 2048, kdist (pt x0 b (tileIdx tiles8 i r)) (pt x1 b (tileIdx chunks4 0 q)))
      + ∑ q : Fin 2048, kdist (pt x0 b (tileIdx tiles8 i r)) (pt x1 b (tileIdx chunks4 1 q)))
      + ∑ q : Fin 2048, kdist (pt x0 b (tileIdx tiles8 i r)) (pt x1 b (tileIdx chunks4 2 q)))
      + ∑ q : Fin 2048, kdist (pt x0 b (tileIdx tiles8 i r)) (pt x1 b (tileIdx chunks4 3 q)))

/-- The 8 partial sums of a batch add up to the sum over all pairs. -/
theorem sum_tileTotal (x0 x1 : Cloud) (b : Fin 4) :
    ∑ i : Fin 8, tileTotal x0 x1 b i = ∑ n : Fin 8192, ∑ m : Fin 8192, kdist (pt x0 b n) (pt x1 b m) := by
  rw [sum_tiles tiles8 (fun n => ∑ m : Fin 8192, kdist (pt x0 b n) (pt x1 b m))]
  unfold tileTotal
  refine Finset.sum_congr rfl fun i _ => Finset.sum_congr rfl fun r _ => ?_
  rw [sum_tiles chunks4 (fun m => kdist (pt x0 b (tileIdx tiles8 i r)) (pt x1 b m)), Fin.sum_univ_four,
    Ideal.ofBits_zero_f32, zero_add]

end Cert.PointDist

end
-- ==== Proof.Blocks.lean ====
/-
  From the grid points' blocks to the array of partial sums.

  The kernel runs on a 4 × 8 grid: point (b, i) is handed tile `i` of batch `b` of the first cloud — transposed by the
  host to coordinates × points, so the block is [1, 3, 1024] at block index (b, 0, i) — and the whole batch `b` of the
  second cloud, [1, 3, 8192] at (b, 0, 0), of which the body loads four chunks of 2048 points. It writes back one
  [1, 1, 1, 128] block at (b, i, 0, 0) holding, in every lane, the tile's partial sum (`tileTotal`, Spec.lean). The
  32 blocks tile the [4, 8, 1, 128] output array, so after the run the array holds, at (b, i, 0, l), the partial sum
  of tile `i` of batch `b`.
-/
import proofs.«113930_j45844480917997_2_alg».proof.Proof.Gen.KernelIdeal.Frame
import proofs.«113930_j45844480917997_2_alg».proof.Proof.TileSum
import proofs.«113930_j45844480917997_2_alg».proof.Proof.Spec
import Idealize.ShloMosaic.Lib.Pipeline.Value
import Idealize.ShloMosaic.Lib.ValueLayout
import Idealize.ShloMosaic.Lib.StableHlo.Run

set_option maxRecDepth 16384

noncomputable section

namespace Cert.PointDist

open Idealize.ShloMosaic Idealize.ShloMosaic.TcCoe Idealize.ShloMosaic.ValueIdx Idealize.SL.Sem
open Idealize.ShloMosaic.StableHlo
open Cert.KernelIdeal Cert.KernelIdeal.Gen

variable (m : (ℓ : Loc nD τ sig) → Buf (Elt Ideal) ℓ)

/-- The first cloud as launched. -/
abbrev A0 (c : Dev nD) : Cloud := m ((c : Thread nD τ).loc main_arg0)
/-- The second cloud as launched. -/
abbrev A1 (c : Dev nD) : Cloud := m ((c : Thread nD τ).loc main_arg1)

/-! ## The arrays the region finds: the clouds transposed to coordinates × points -/

theorem V_v0 (c : Dev nD) :
    (V m c main_v0 : S4x3x8192.Idx → EReal) = transpose S4x3x8192 [0, 2, 1] (A0 m c) Facts₀.transposes_S4x8192x3_S4x3x8192_0_2_1 := by
  show StableHlo.after hostOps0 (fun b => m (c, b)) (Proc.devRef .tc main_v0) = _
  after_results

theorem V_v1 (c : Dev nD) :
    (V m c main_v1 : S4x3x8192.Idx → EReal) = transpose S4x3x8192 [0, 2, 1] (A1 m c) Facts₀.transposes_S4x8192x3_S4x3x8192_0_2_1 := by
  show StableHlo.after hostOps0 (fun b => m (c, b)) (Proc.devRef .tc main_v1) = _
  after_results

/-! ## The printed index maps over the grid -/

/-- At every point the first input's block index is (b, 0, i), the second's (b, 0, 0) and the output's (b, i, 0, 0),
    with b < 4 and i < 8. -/
theorem idx_facts : ∀ t : Fin cfg0.N,
    win0_0.index t (0 : Fin 3) = win0_2.index t (0 : Fin 4) ∧ win0_0.index t (1 : Fin 3) = 0
    ∧ win0_0.index t (2 : Fin 3) = win0_2.index t (1 : Fin 4)
    ∧ win0_1.index t (0 : Fin 3) = win0_2.index t (0 : Fin 4) ∧ win0_1.index t (1 : Fin 3) = 0 ∧ win0_1.index t (2 : Fin 3) = 0
    ∧ win0_2.index t (0 : Fin 4) < 4 ∧ win0_2.index t (1 : Fin 4) < 8
    ∧ win0_2.index t (2 : Fin 4) = 0 ∧ win0_2.index t (3 : Fin 4) = 0 :=
  (by decide +kernel : ∀ t : Fin grid0.N, _)

/-- Every (b, i) is some point's output block index. -/
theorem idx_onto : ∀ (q0 : Fin 4) (q1 : Fin 8), ∃ t : Fin cfg0.N, win0_2.index t = ![q0.val, q1.val, 0, 0] :=
  (by decide +kernel : ∀ (q0 : Fin 4) (q1 : Fin 8), ∃ t : Fin grid0.N, win0_2.index t = ![q0.val, q1.val, 0, 0])

/-! ## The input blocks, read at a point's coordinates -/

/-- Coordinate `d` of point `r` of the first input's block at a point with output block index (b, i) is coordinate `d`
    of point `i · 1024 + r` of batch `b` of the first cloud. -/
theorem blk0_apply (c : Dev nD) (t : Fin cfg0.N) (b : Fin 4) (i : Fin 8) (hb : win0_2.index t (0 : Fin 4) = b.val)
    (hi : win0_2.index t (1 : Fin 4) = i.val) (d : Fin 3) (r : Fin 1024) :
    iblk m c 0 t (ix3 (0 : Fin 1) d r) = A0 m c (ix3 b (tileIdx tiles8 i r) d) := by
  obtain ⟨e0, e1, e2, -⟩ := idx_facts t
  show V m c main_v0 (((cfg0.win 0).blk t).view.emb (ix3 (0 : Fin 1) d r)) = _
  rw [V_v0]
  refine transpose_apply _ _ _ _ _ fun a => ?_
  match a with
  | ⟨0, _⟩ => show b.val = win0_0.index t (0 : Fin 3) * 1 + 1 * 0; omega
  | ⟨1, _⟩ => show d.val = win0_0.index t (1 : Fin 3) * 3 + 1 * d.val; omega
  | ⟨2, _⟩ => show i.val * 1024 + r.val = win0_0.index t (2 : Fin 3) * 1024 + 1 * r.val; omega

/-- Coordinate `d` of point `n` of the second input's block is coordinate `d` of point `n` of batch `b` of the second
    cloud: the block is the whole batch. -/
theorem blk1_apply (c : Dev nD) (t : Fin cfg0.N) (b : Fin 4) (hb : win0_2.index t (0 : Fin 4) = b.val)
    (d : Fin 3) (n : Fin 8192) :
    iblk m c 1 t (ix3 (0 : Fin 1) d n) = A1 m c (ix3 b n d) := by
  obtain ⟨-, -, -, e3, e4, e5, -⟩ := idx_facts t
  show V m c main_v1 (((cfg0.win 1).blk t).view.emb (ix3 (0 : Fin 1) d n)) = _
  rw [V_v1]
  refine transpose_apply _ _ _ _ _ fun a => ?_
  match a with
  | ⟨0, _⟩ => show b.val = win0_1.index t (0 : Fin 3) * 1 + 1 * 0; omega
  | ⟨1, _⟩ => show d.val = win0_1.index t (1 : Fin 3) * 3 + 1 * d.val; omega
  | ⟨2, _⟩ => show n.val = win0_1.index t (2 : Fin 3) * 8192 + 1 * n.val; omega

/-! ## What the body leaves in the output block, over any input blocks -/

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The output block at any lane: over the first block's 1024 points, the four chunk sums of distances to the second
    block's points 0–2047, 2048–4095, 4096–6143, 6144–8191, added in order to zero. -/
theorem out_block_apply (x0 : Vec Ideal S1x3x1024 .f32) (x1 : Vec Ideal S1x3x8192 .f32) (y : S1x1x1x128.Idx) :
    out0_2 (F := Ideal) x0 x1 y
      = ∑ r : Fin 1024,
          ((((Ideal.ofBits .f32 0x00000000#32
            + ∑ q : Fin 2048, kdist (fun d => x0 (ix3 (0 : Fin 1) d r)) (fun d => x1 (ix3 (0 : Fin 1) d (tileIdx chunks4 0 q))))
            + ∑ q : Fin 2048, kdist (fun d => x0 (ix3 (0 : Fin 1) d r)) (fun d => x1 (ix3 (0 : Fin 1) d (tileIdx chunks4 1 q))))
            + ∑ q : Fin 2048, kdist (fun d => x0 (ix3 (0 : Fin 1) d r)) (fun d => x1 (ix3 (0 : Fin 1) d (tileIdx chunks4 2 q))))
            + ∑ q : Fin 2048, kdist (fun d => x0 (ix3 (0 : Fin 1) d r)) (fun d => x1 (ix3 (0 : Fin 1) d (tileIdx chunks4 3 q)))) := by
  have l1 : ∀ (d : Fin 3) (q : Fin 2048), View.ld x1 r0_1 (ix3 (0 : Fin 1) d q) = x1 (ix3 (0 : Fin 1) d (tileIdx chunks4 0 q)) :=
    fun d q => congrArg x1 (funext fun a => Fin.ext (by
      match a with
      | ⟨0, _⟩ => rfl
      | ⟨1, _⟩ => show 0 + 1 * d.val = d.val; omega
      | ⟨2, _⟩ => show 0 + 1 * q.val = 0 * 2048 + q.val; omega))
  have l2 : ∀ (d : Fin 3) (q : Fin 2048), View.ld x1 r0_2 (ix3 (0 : Fin 1) d q) = x1 (ix3 (0 : Fin 1) d (tileIdx chunks4 1 q)) :=
    fun d q => congrArg x1 (funext fun a => Fin.ext (by
      match a with
      | ⟨0, _⟩ => rfl
      | ⟨1, _⟩ => show 0 + 1 * d.val = d.val; omega
      | ⟨2, _⟩ => show 2048 + 1 * q.val = 1 * 2048 + q.val; omega))
  have l3 : ∀ (d : Fin 3) (q : Fin 2048), View.ld x1 r0_3 (ix3 (0 : Fin 1) d q) = x1 (ix3 (0 : Fin 1) d (tileIdx chunks4 2 q)) :=
    fun d q => congrArg x1 (funext fun a => Fin.ext (by
      match a with
      | ⟨0, _⟩ => rfl
      | ⟨1, _⟩ => show 0 + 1 * d.val = d.val; omega
      | ⟨2, _⟩ => show 4096 + 1 * q.val = 2 * 2048 + q.val; omega))
  have l4 : ∀ (d : Fin 3) (q : Fin 2048), View.ld x1 r0_4 (ix3 (0 : Fin 1) d q) = x1 (ix3 (0 : Fin 1) d (tileIdx chunks4 3 q)) :=
    fun d q => congrArg x1 (funext fun a => Fin.ext (by
      match a with
      | ⟨0, _⟩ => rfl
      | ⟨1, _⟩ => show 0 + 1 * d.val = d.val; omega
      | ⟨2, _⟩ => show 6144 + 1 * q.val = 3 * 2048 + q.val; omega))
  unfold out0_2
  rw [View.canon_unit_zero hz4]
  simp only [View.ld_unit_zero (S := S1x3x1024) hz3]
  rw [stored_apply]
  simp only [l1, l2, l3, l4]

/-! ## What a point writes back, the cover, the array -/

/-- The array of partial sums: at (b, i, ·, ·), the partial sum of tile `i` of batch `b`. -/
def partials (x0 x1 : Cloud) : S4x8x1x128.Idx → EReal := fun j => tileTotal x0 x1 (j 0) (j 1)

/-- What point `t` writes back is block `t` of the array of partial sums of the clouds as launched. -/
theorem flushed_eq (c : Dev nD) (t : Fin cfg0.N) :
    (dats m 0 c).flushed 2 t = ((cfg0.win 2).blk t).view.read (Elt Ideal) (partials (A0 m c) (A1 m c)) := by
  show (cfg0.win 2).cut (grid0.coords t) ((dats m 0 c).after 2 t) = _
  rw [after0_2]
  obtain ⟨-, -, -, -, -, -, h4, h8, z2, z3⟩ := idx_facts t
  funext y
  have hb : (((cfg0.win 2).blk t).view.emb y) 0 = (⟨win0_2.index t (0 : Fin 4), h4⟩ : Fin 4) := Fin.ext (by
    show win0_2.index t (0 : Fin 4) * 1 + 1 * (y 0).val = win0_2.index t (0 : Fin 4)
    have hy : (y 0).val < 1 := (y 0).isLt
    omega)
  have hi : (((cfg0.win 2).blk t).view.emb y) 1 = (⟨win0_2.index t (1 : Fin 4), h8⟩ : Fin 8) := Fin.ext (by
    show win0_2.index t (1 : Fin 4) * 1 + 1 * (y 1).val = win0_2.index t (1 : Fin 4)
    have hy : (y 1).val < 1 := (y 1).isLt
    omega)
  show out0_2 (iblk m c 0 t) (iblk m c 1 t) y
    = tileTotal (A0 m c) (A1 m c) ((((cfg0.win 2).blk t).view.emb y) 0) ((((cfg0.win 2).blk t).view.emb y) 1)
  rw [hb, hi, out_block_apply]
  unfold tileTotal
  have hp : ∀ r : Fin 1024, (fun d => iblk m c 0 t (ix3 (0 : Fin 1) d r))
      = pt (A0 m c) ⟨win0_2.index t (0 : Fin 4), h4⟩ (tileIdx tiles8 ⟨win0_2.index t (1 : Fin 4), h8⟩ r) :=
    fun r => funext fun d => blk0_apply m c t _ _ rfl rfl d r
  have ht : ∀ n : Fin 8192, (fun d => iblk m c 1 t (ix3 (0 : Fin 1) d n)) = pt (A1 m c) ⟨win0_2.index t (0 : Fin 4), h4⟩ n :=
    fun n => funext fun d => blk1_apply m c t _ rfl d n
  simp only [hp, ht]

/-- An index of the array is in point `t`'s block iff each coordinate is in the block's range on its axis. -/
theorem mem_blk (t : Fin cfg0.N) (j : S4x8x1x128.Idx) :
    j ∈ ((cfg0.win 2).blk t).view.set ↔ ∀ a : Fin 4, win0_2.index t a * S1x1x1x128.size a ≤ (j a).val
      ∧ (j a).val < win0_2.index t a * S1x1x1x128.size a + S1x1x1x128.size a := by
  show j ∈ ((View.whole main_v2).slice (win0_2.rect t)).set ↔ _
  rw [View.set_slice_whole, Rect.mem_set_unit]
  exact Iff.rfl

/-- Every index of the array is in the block of the point whose output block index is the index's (b, i). -/
theorem cover (j : S4x8x1x128.Idx) :
    ∃ t : Fin cfg0.N, (cfg0.win 2).flush t = true ∧ j ∈ ((cfg0.win 2).blk t).view.set := by
  obtain ⟨t, ht⟩ := idx_onto ⟨(j 0).val, (j 0).isLt⟩ ⟨(j 1).val, (j 1).isLt⟩
  have q0 : win0_2.index t (0 : Fin 4) = (j 0).val := congrFun ht 0
  have q1 : win0_2.index t (1 : Fin 4) = (j 1).val := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ =>
    show win0_2.index t (0 : Fin 4) * 1 ≤ (j 0).val ∧ (j 0).val < win0_2.index t (0 : Fin 4) * 1 + 1
    omega
  | ⟨1, _⟩ =>
    show win0_2.index t (1 : Fin 4) * 1 ≤ (j 1).val ∧ (j 1).val < win0_2.index t (1 : Fin 4) * 1 + 1
    omega
  | ⟨2, _⟩ =>
    show win0_2.index t (2 : Fin 4) * 1 ≤ (j 2).val ∧ (j 2).val < win0_2.index t (2 : Fin 4) * 1 + 1
    have hj : (j 2).val < 1 := (j 2).isLt
    omega
  | ⟨3, _⟩ =>
    show win0_2.index t (3 : Fin 4) * 128 ≤ (j 3).val ∧ (j 3).val < win0_2.index t (3 : Fin 4) * 128 + 128
    have hj : (j 3).val < 128 := (j 3).isLt
    omega

/-- THE ARRAY after the run: the partial sums of the clouds as launched. -/
theorem final (c : Dev nD) : (dats m 0 c).arrAt 2 cfg0.N = partials (A0 m c) (A1 m c) :=
  (dats m 0 c).arrAt_eq_of_cover 2 (partials (A0 m c) (A1 m c)) (fun t _ => flushed_eq m c t) cover

end Cert.PointDist

end
-- ==== Proof.Tail.lean ====
/-
  The host lines after the kernel, and the kernel program's result.

  After the region the host takes lane 0 of every output block — the [4, 8] array of partial sums —, sums each batch's
  8 partial sums from zero and divides by the float 2²⁶. The 8 partial sums of a batch add up to the sum over all
  pairs of points (`sum_tileTotal`, Spec.lean), so the program's result is the specification `meanDist` of the clouds
  as launched.
-/
import proofs.«113930_j45844480917997_2_alg».proof.Proof.Blocks

set_option maxRecDepth 16384

noncomputable section

namespace Cert.PointDist

open Idealize.ShloMosaic Idealize.ShloMosaic.TcCoe Idealize.ShloMosaic.ValueIdx Idealize.SL.Sem
open Idealize.ShloMosaic.StableHlo
open Cert.KernelIdeal Cert.KernelIdeal.Gen

/-- The host lines after the region, as one function of the output array. -/
def tail (Y : S4x8x1x128.Idx → EReal) : S4.Idx → EReal :=
  Host.divf
    (Host.reduceAdd
      (shapeCast S4x8 (extractStridedSlice S4x8x1x1 ![0, 0, 0, 0] Y Facts₀.slices_S4x8x1x128_S4x8x1x1_0_0_0_0)
        Facts₀.shapeCasts_S4x8x1x1_S4x8)
      (constant (F := Ideal) S_ .f32 0x00000000#32) Facts₀.reducesTo_S4x8_S4_d1 Facts₀.h_S_)
    (broadcastInDim S4 ![] Facts₀.bcast_S_S4 (constant (F := Ideal) S_ .f32 0x4C800000#32))

/-- Of the array of partial sums, the host lines compute the specification. -/
theorem tail_partials (x0 x1 : Cloud) : tail (partials x0 x1) = meanDist x0 x1 := by
  funext j
  obtain ⟨b, rfl⟩ : ∃ b : Fin 4, j = ix1 b := ⟨j 0, eq_ix1 j⟩
  show Ideal.div (Ideal.hostReduceAdd Facts₀.reducesTo_S4x8_S4_d1
      (shapeCast S4x8 (extractStridedSlice S4x8x1x1 ![0, 0, 0, 0] (partials x0 x1) Facts₀.slices_S4x8x1x128_S4x8x1x1_0_0_0_0)
        Facts₀.shapeCasts_S4x8x1x1_S4x8)
      (Ideal.ofBits .f32 0x00000000#32) (ix1 b)) (Ideal.ofBits .f32 0x4C800000#32) = _
  have hR : S4x8.Reduces [1] S4 := by decide
  rw [Ideal.hostReduceAdd_single Facts₀.reducesTo_S4x8_S4_d1 hR]
  unfold meanDist
  refine congrArg (fun s => Ideal.div (Ideal.ofBits .f32 0x00000000#32 + s) (Ideal.ofBits .f32 0x4C800000#32)) ?_
  rw [← sum_tileTotal]
  refine Finset.sum_congr rfl fun k _ => ?_
  rw [Cert.Columns.lift_row hR b k]
  refine (shapeCast_apply _ _ (ix2 b (⟨k.val, k.isLt⟩ : Fin 8)) (ix4 b (⟨k.val, k.isLt⟩ : Fin 8) (0 : Fin 1) (0 : Fin 1)) ?_).trans ?_
  · rw [Shape.rowMajor_val_four, Shape.rowMajor_val_two]
    show ((b.val * 8 + k.val) * 1 + 0) * 1 + 0 = b.val * 8 + k.val
    omega
  refine (extractStridedSlice_apply _ _ _ _ (ix4 b (⟨k.val, k.isLt⟩ : Fin 8) (0 : Fin 1) (0 : Fin 128)) ?_).trans ?_
  · intro a
    match a with
    | ⟨0, _⟩ => show b.val = 0 + b.val; omega
    | ⟨1, _⟩ => show k.val = 0 + k.val; omega
    | ⟨2, _⟩ => show 0 = 0 + 0; rfl
    | ⟨3, _⟩ => show 0 = 0 + 0; rfl
  rfl

variable (m : (ℓ : Loc nD τ sig) → Buf (Elt Ideal) ℓ)

/-- What the lines after the region leave in the result buffer: the specification of the clouds as launched. -/
theorem tail_value (c : Dev nD) :
    Pipeline.afterTail₀ cfgs (dats m) 0 (V0 m) [hostOps1] c main_v7 = meanDist (A0 m c) (A1 m c) := by
  unfold Pipeline.afterTail₀
  show StableHlo.after hostOps1 _ (Proc.devRef .tc main_v7) = _
  after_results
  refine Eq.trans ?_ (tail_partials (A0 m c) (A1 m c))
  exact congrArg tail ((Pipeline.withArrays_arr spec0 launch0.win.arr_inj c _ _ 2).trans (final m c))

/-- THE KERNEL PROGRAM'S RUN: every weakly fair execution terminates with the result at the specification of the
    clouds as launched, and the clouds unchanged. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v7) = meanDist (A0 m c) (A1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v7 (Pipeline.mem_restRefs_of main_v7 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.PointDist

end
-- ==== Proof.RefValue.lean ====
/-
  The reference's result as a function of the two point clouds, entry by entry.

  For batch `b` the reference forms the 8192 × 8192 array of distances between point `n` of the first cloud and point
  `m` of the second (`rdist`, PairDist.lean: squared norms summed from zero, minus twice the inner product, clamped at
  zero, square-rooted), sums it over both point axes from zero, and divides by 8192² = 2²⁶. Where the clouds hold
  real numbers every entry is also the kernel's distance `kdist`, so the result is `meanDist`: the common specification
  both programs are compared with (Spec.lean).
-/
import proofs.«113930_j45844480917997_2_alg».proof.Proof.Gen.ReferenceIdeal.Read
import proofs.«113930_j45844480917997_2_alg».proof.Proof.Spec
import Idealize.ShloMosaic.Lib.IdealHost

noncomputable section

namespace Cert.PointDist

open Idealize.ShloMosaic Idealize.ShloMosaic.ValueIdx
open Cert.ReferenceIdeal Cert.ReferenceIdeal.Facts₀

/-- Entry (b, n, m) of the reference's distance array is its distance of point `n` of the first cloud and point `m` of
    the second, both of batch `b`. -/
theorem ref_entry (x0 x1 : Cloud) (b : Fin 4) (n m : Fin 8192) :
    Read.val_main_v15 (F := Ideal) x0 x1 (ix3 b n m) = rdist (pt x0 b n) (pt x1 b m) := by
  have e1 : ∀ k, Read.idx_main_v1 (Read.idx_main_v5 (Read.idx_main_v7 (ix3 b n m))) k = ix3 b n k := fun k =>
    funext fun a => Fin.ext (by match a with | ⟨0, _⟩ => rfl | ⟨1, _⟩ => rfl | ⟨2, _⟩ => rfl)
  have e3 : ∀ k, Read.idx_main_v3 (Read.idx_main_v6 (Read.idx_main_v8 (ix3 b n m))) k = ix3 b m k := fun k =>
    funext fun a => Fin.ext (by match a with | ⟨0, _⟩ => rfl | ⟨1, _⟩ => rfl | ⟨2, _⟩ => rfl)
  have el : ∀ k, Read.lidx_main_v4 (ix3 b n m) k = ix3 b n k := fun k =>
    funext fun a => Fin.ext (by match a with | ⟨0, _⟩ => rfl | ⟨1, _⟩ => rfl | ⟨2, _⟩ => rfl)
  have er : ∀ k, Read.ridx_main_v4 (ix3 b n m) k = ix3 b m k := fun k =>
    funext fun a => Fin.ext (by match a with | ⟨0, _⟩ => rfl | ⟨1, _⟩ => rfl | ⟨2, _⟩ => rfl)
  rw [Read.val_main_v15_apply, Read.val_main_v14_apply, Read.val_main_v12_apply, Read.val_main_v9_apply,
    Read.val_main_v7_apply, Read.val_main_v5_apply, Read.val_main_v1_apply, Read.val_main_v8_apply,
    Read.val_main_v6_apply, Read.val_main_v3_apply, Read.val_main_v11_apply, Read.val_main_v10_apply,
    Read.val_main_v4_apply, Read.val_main_v13_apply]
  simp only [e1, e3, el, er, Read.val_main_v0_apply, Read.val_main_v2_apply, Read.val_main_cst_apply,
    Read.val_main_cst_0_apply, Read.val_main_cst_1_apply, Read.val_main_cst_2_apply]
  rfl

/-- The reference's result is the specification, for clouds of real numbers. -/
theorem ref_value (x0 x1 : Cloud) (h0 : ∀ i, ∃ r : ℝ, x0 i = (r : EReal)) (h1 : ∀ i, ∃ r : ℝ, x1 i = (r : EReal)) :
    Read.val_main_v18 (F := Ideal) x0 x1 = meanDist x0 x1 := by
  choose p hp using h0
  choose t ht using h1
  funext i
  obtain ⟨b, rfl⟩ : ∃ b : Fin 4, i = ix1 b := ⟨i 0, eq_ix1 i⟩
  rw [Read.val_main_v18_apply, Read.val_main_v17_apply, Read.val_main_cst_4_apply]
  show Ideal.div (Ideal.hostReduceAdd reducesTo_S4x8192x8192_S4_d1_2 (Read.val_main_v15 (F := Ideal) x0 x1)
      (Read.val_main_cst_3 (F := Ideal) (Shape.Idx.first h_S_)) (ix1 b)) (Ideal.ofBits .f32 0x4C800000#32) = _
  rw [hostReduceAdd_last_two, Read.val_main_cst_3_apply]
  unfold meanDist
  refine congrArg (fun s => Ideal.div (Ideal.ofBits .f32 0x00000000#32 + s) (Ideal.ofBits .f32 0x4C800000#32)) ?_
  refine Finset.sum_congr rfl fun n _ => Finset.sum_congr rfl fun m _ => ?_
  rw [ref_entry]
  have hn : pt x0 b n = fun d => ((p (ix3 b n d) : ℝ) : EReal) := funext fun d => hp _
  have hm : pt x1 b m = fun d => ((t (ix3 b m d) : ℝ) : EReal) := funext fun d => ht _
  show rdist (pt x0 b n) (pt x1 b m) = kdist (pt x0 b n) (pt x1 b m)
  rw [hn, hm]
  exact rdist_eq_kdist _ _

end Cert.PointDist

end
-- ==== Proof.Finite.lean ====
/-
  The precondition, opened: both clouds hold real numbers.

  `finite_inputs` says of each cloud that every entry's absolute value compares below +∞. An extended real whose
  absolute value max(x, −x) is below +∞ is neither +∞ nor −∞, so it is a real number. This is what lets the factor −2
  move across the inner product (PairDist.lean).
-/
import proofs.«113930_j45844480917997_2_alg».proof.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.PointDist

open Idealize.ShloMosaic Idealize.ShloMosaic.ValueIdx
open Cert.Pre_finite_inputs

instance : Subsingleton Cert.Pre_finite_inputs.S_.Idx := ⟨fun _ _ => funext fun d => d.elim0⟩

/-- An extended real whose absolute value is below the f32 pattern of +∞ is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

variable [Cert.Pre_finite_inputs.Facts]

/-- Where the precondition is all ones, every entry of both clouds is a real number. -/
theorem real_of_pre (x0 x1 : FVec Ideal Cert.Pre_finite_inputs.S4x8192x3 .f32)
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ix0
  dsimp only [Cert.Pre_finite_inputs.fn] at h0
  obtain ⟨ha, hb⟩ := IntOp.andi_eq_one.1 h0
  exact ⟨fun i => real_of_abs_lt _ (Host.reduce_andi_all _ _ _ _ _ ha i),
    fun i => real_of_abs_lt _ (Host.reduce_andi_all _ _ _ _ _ hb i)⟩

end Cert.PointDist

end
-- ==== Proof.lean ====
/-
  Mean pairwise distance between two point clouds: the tiled kernel against the whole-array reference.

  For each of 4 batches the result is the mean, over all 8192 × 8192 pairs, of the Euclidean distance between a point
  of the first cloud and a point of the second, computed as sqrt(max(‖p‖² + ‖t‖² − 2 p·t, 0)), summed and divided by
  2²⁶. The reference forms the whole distance array and sums it at once. The kernel works on a 4 × 8 grid: each
  point takes a tile of 1024 first points against the batch's second points in four chunks of 2048, folds the factor
  −2 into the second operand of the K = 3 matrix product, sums the distances row by row and chunk by chunk, and leaves
  one partial sum per tile; the host then adds each batch's 8 partial sums and divides.

  On the extended reals the two agree for real inputs, which the precondition provides:
  • the kernel's (‖p‖² + ‖t‖²) + Σ_d p_d · (t_d · (−2)) and the reference's (‖p‖² + ‖t‖²) − 2 · Σ_d p_d · t_d are one
    polynomial in real coordinates (Proof/PairDist.lean; Proof/Finite.lean opens the precondition);
  • the order and grouping of the sums do not matter: addition of extended reals is commutative and associative, and
    every pair (n, m) is (tile, row) × (chunk, column) exactly once (Proof/LibSumSplit.lean, Proof/Spec.lean);
  • a change of float format is the identity, and both programs divide by the same float 2²⁶.
  Proof/TileSum.lean reads one grid point's stored value, Proof/Blocks.lean the array of partial sums after the run,
  Proof/Tail.lean the host lines after the kernel and the kernel program's run, Proof/RefValue.lean the reference's
  result; both runs end at the one specification `meanDist`.
-/
import proofs.«113930_j45844480917997_2_alg».proof.Defs
import proofs.«113930_j45844480917997_2_alg».proof.Proof.Gen.Kernel
import proofs.«113930_j45844480917997_2_alg».proof.Proof.Gen.Kernel.Skeleton
import proofs.«113930_j45844480917997_2_alg».proof.Proof.Gen.Kernel.Launch
import proofs.«113930_j45844480917997_2_alg».proof.Proof.Gen.Kernel.Points
import proofs.«113930_j45844480917997_2_alg».proof.Proof.Gen.Kernel.Frame
import proofs.«113930_j45844480917997_2_alg».proof.Proof.Gen.KernelIdeal
import proofs.«113930_j45844480917997_2_alg».proof.Proof.Gen.KernelIdeal.Skeleton
import proofs.«113930_j45844480917997_2_alg».proof.Proof.Gen.KernelIdeal.Launch
import proofs.«113930_j45844480917997_2_alg».proof.Proof.Gen.KernelIdeal.Points
import proofs.«113930_j45844480917997_2_alg».proof.Proof.Gen.KernelIdeal.Frame
import proofs.«113930_j45844480917997_2_alg».proof.Proof.Gen.ReferenceIdeal
import proofs.«113930_j45844480917997_2_alg».proof.Proof.Gen.ReferenceIdeal.Run
import proofs.«113930_j45844480917997_2_alg».proof.Proof.Gen.ReferenceIdeal.Read
import proofs.«113930_j45844480917997_2_alg».proof.Proof.Gen.Pre_finite_inputs
import proofs.«113930_j45844480917997_2_alg».proof.Proof.Tail
import proofs.«113930_j45844480917997_2_alg».proof.Proof.RefValue
import proofs.«113930_j45844480917997_2_alg».proof.Proof.Finite
import Idealize.ShloMosaic.Adequacy
import Idealize.ShloMosaic.Init

noncomputable section

namespace Cert.Proof

open Idealize.ShloMosaic Idealize.ShloMosaic.TcCoe Idealize.SL.Sem Cert.PointDist

/-- The word-level kernel program runs and leaves the clouds unchanged. -/
theorem frame_k : Cert.frame_Kernel (hKernel := Cert.Kernel.Gen.facts) (hPre_finite_inputs := Cert.Pre_finite_inputs.Gen.facts) :=
  fun m ρ _ => Cert.Kernel.Gen.frame m ρ

/-- The idealized kernel program runs and leaves the clouds unchanged. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves the clouds unchanged: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From clouds of real numbers both programs end at the mean pairwise distance `meanDist` of the clouds. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => meanDist (A0 m c) (A1 m c), kernel_run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v18_eq, (hagree c).1, (hagree c).2]
  obtain ⟨r0, r1⟩ := real_of_pre _ _ (hpre c)
  exact ref_value _ _ r0 r1

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
